-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S8x2048x5632 : S_.BroadcastsInDim S8x2048x5632 (![] : Fin 0 → Fin S8x2048x5632.rank)
  reducesTo_S8x2048x5632_S_d0_1_2 : S8x2048x5632.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn_part1 {F : FTy → Type} [FloatOps F] (main_v13 : IVec S_ 1) (main_v16 : IVec S8x2048x5632 1) : IVec S_ 1 :=
  let main_c_5 : IVec S_ 1 := constantI S_ 1 1#1
  let main_v17 : IVec S_ 1 := (fun x v => Host.reduce IntOp.andi x v reducesTo_S8x2048x5632_S_d0_1_2 h_S_) main_v16 main_c_5
  let main_v18 : IVec S_ 1 := andi main_v13 main_v17
  main_v18

def fn {F : FTy → Type} [FloatOps F] (main_arg0 : FVec F S16384x2048 .f32) (main_arg1 : FVec F S8x2048x5632 .f32) (main_arg2 : FVec F S8x5632x2048 .f32) (main_arg3 : FVec F S8x2048x5632 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S8x2048x5632 .f32 := Host.absf main_arg1
  let main_cst_0 : FVec F S_ .f32 := constant S_ .f32 0x7F800000#32
  let main_v5 : FVec F S8x2048x5632 .f32 := broadcastInDim S8x2048x5632 ![] bcast_S_S8x2048x5632 main_cst_0
  let main_v6 : IVec S8x2048x5632 1 := cmpf .olt main_v4 main_v5
  let main_c_1 : IVec S_ 1 := constantI S_ 1 1#1
  let main_v7 : IVec S_ 1 := (fun x v => Host.reduce IntOp.andi x v reducesTo_S8x2048x5632_S_d0_1_2 h_S_) main_v6 main_c_1
  let main_v8 : IVec S_ 1 := andi main_v3 main_v7
  let main_v9 : FVec F S8x5632x2048 .f32 := Host.absf main_arg2
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  let main_v14 : FVec F S8x2048x5632 .f32 := Host.absf main_arg3
  let main_cst_4 : FVec F S_ .f32 := constant S_ .f32 0x7F800000#32
  let main_v15 : FVec F S8x2048x5632 .f32 := broadcastInDim S8x2048x5632 ![] bcast_S_S8x2048x5632 main_cst_4
  let main_v16 : IVec S8x2048x5632 1 := cmpf .olt main_v14 main_v15
  fn_part1 (F := F) main_v13 main_v16
-- ==== Kernel.lean ====
abbrev S16384x2048 : Shape := ⟨2, ![16384, 2048]⟩
abbrev S8x2048x5632 : Shape := ⟨3, ![8, 2048, 5632]⟩
abbrev S8x5632x2048 : Shape := ⟨3, ![8, 5632, 2048]⟩
abbrev S8x2048x2048 : Shape := ⟨3, ![8, 2048, 2048]⟩
abbrev S1x512x2048 : Shape := ⟨3, ![1, 512, 2048]⟩
abbrev S1x2048x256 : Shape := ⟨3, ![1, 2048, 256]⟩
abbrev S1x256x2048 : Shape := ⟨3, ![1, 256, 2048]⟩
abbrev S512x2048 : Shape := ⟨2, ![512, 2048]⟩
abbrev S2048x256 : Shape := ⟨2, ![2048, 256]⟩
abbrev S512x256 : Shape := ⟨2, ![512, 256]⟩
abbrev S256x2048 : Shape := ⟨2, ![256, 2048]⟩

abbrev nBuf : Space → Nat
  | .hbm => 11
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x2048, .f32⟩
  | .hbm, ⟨5, _⟩ => ⟨S8x2048x2048, .bf16⟩
  | .hbm, ⟨6, _⟩ => ⟨S8x2048x5632, .bf16⟩
  | .hbm, ⟨7, _⟩ => ⟨S8x2048x5632, .bf16⟩
  | .hbm, ⟨8, _⟩ => ⟨S8x5632x2048, .bf16⟩
  | .hbm, ⟨9, _⟩ => ⟨S8x2048x2048, .f32⟩
  | .hbm, ⟨10, _⟩ => ⟨S16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S1x512x2048, .f32⟩
  | .local _ .vmem, ⟨9, _⟩ => ⟨S1x512x2048, .f32⟩
  | .local _ .vmem, ⟨10, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 22], ![false, false, false]⟩

def k0_cond2 (i : grid0.Coords) : BitVec 1 :=
  let arg2 : BitVec 32 := BitVec.ofNat 32 (i 2).val
  let c21_i32 : BitVec 32 := 21#32
  let v23 : BitVec 1 := Scalar.cmpi .eq arg2 c21_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S16384x2048_S8x2048x2048 : S16384x2048.ShapeCasts S8x2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S512x2048_S1x512x2048 : S512x2048.ShapeCasts S1x512x2048
  shapeCasts_S8x2048x2048_S16384x2048 : S8x2048x2048.ShapeCasts S16384x2048
  dot_S512x2048_S2048x256_S512x256_1_0_0_1_n_n_wf : DotDims.WF S512x2048 S2048x256 S512x256 [1] [0] [0] [1] [] []
  dot_S512x256_S256x2048_S512x2048_1_0_0_1_n_n_wf : DotDims.WF S512x256 S256x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .bf16 = 32 ∨ (Rect.block (s := S8x2048x2048) S1x512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x2048x5632.size a
  hwx0_1 : ∀ i : grid0.Coords, EltTy.bits .bf16 = 32 ∨ (Rect.block (s := S8x2048x5632) S1x2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S8x2048x5632.size a
  hwx0_2 : ∀ i : grid0.Coords, EltTy.bits .bf16 = 32 ∨ (Rect.block (s := S8x2048x5632) S1x2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x5632x2048.size a
  hwx0_3 : ∀ i : grid0.Coords, EltTy.bits .bf16 = 32 ∨ (Rect.block (s := S8x5632x2048) S1x256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S8x2048x2048.size a
  hwx0_4 : ∀ i : grid0.Coords, EltTy.bits .f32 = 32 ∨ (Rect.block (s := S8x2048x2048) S1x512x2048.size (cc0_transform_4 i) (hinb0_4 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf

abbrev win0_0 : Pipeline.Window sig grid0 :=
  Pipeline.Window.ofSpec (Memref.whole main_v1) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8x2048x5632 : Shape := ⟨3, ![8, 2048, 5632]⟩
abbrev S8x5632x2048 : Shape := ⟨3, ![8, 5632, 2048]⟩
abbrev S8x2048x2048 : Shape := ⟨3, ![8, 2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x2048x5632, .f32⟩
  | .hbm, ⟨2, _⟩ => ⟨S8x5632x2048, .f32⟩
  | .hbm, ⟨3, _⟩ => ⟨S8x2048x5632, .f32⟩
  | .hbm, ⟨4, _⟩ => ⟨S8x2048x2048, .f32⟩
  | .hbm, ⟨5, _⟩ => ⟨S8x2048x5632, .f32⟩
  | .hbm, ⟨6, _⟩ => ⟨S8x2048x5632, .f32⟩
  | .hbm, ⟨7, _⟩ => ⟨S8x2048x5632, .f32⟩
  | .hbm, ⟨8, _⟩ => ⟨S8x2048x5632, .f32⟩
  | .hbm, ⟨9, _⟩ => ⟨S_, .f32⟩
  | .hbm, ⟨10, _⟩ => ⟨S8x2048x5632, .f32⟩
  | .hbm, ⟨11, _⟩ => ⟨S8x2048x5632, .f32⟩
  | .hbm, ⟨12, _⟩ => ⟨S_, .f32⟩
  | .hbm, ⟨13, _⟩ => ⟨S8x2048x5632, .f32⟩
  | .hbm, ⟨14, _⟩ => ⟨S8x2048x5632, .f32⟩
  | .hbm, ⟨15, _⟩ => ⟨S8x2048x5632, .f32⟩
  | .hbm, ⟨16, _⟩ => ⟨S8x2048x5632, .f32⟩
  | .hbm, ⟨17, _⟩ => ⟨S8x2048x2048, .f32⟩
  | .hbm, ⟨18, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  shapeCasts_S16384x2048_S8x2048x2048 : S16384x2048.ShapeCasts S8x2048x2048
  bcast_S_S8x2048x5632 : S_.BroadcastsInDim S8x2048x5632 (![] : Fin 0 → Fin S8x2048x5632.rank)
  shapeCasts_S8x2048x2048_S16384x2048 : S8x2048x2048.ShapeCasts S16384x2048
  dot_S8x2048x2048_S8x2048x5632_S8x2048x5632_2_1_1_2_0_0_wf : DotDims.WF S8x2048x2048 S8x2048x5632 S8x2048x5632 [2] [1] [1] [2] [0] [0]
  dot_S8x2048x5632_S8x5632x2048_S8x2048x2048_2_1_1_2_0_0_wf : DotDims.WF S8x2048x5632 S8x5632x2048 S8x2048x2048 [2] [1] [1] [2] [0] [0]

variable [Facts₀]

def dot_S8x2048x2048_S8x2048x5632_S8x2048x5632_2_1_1_2_0_0 : DotDims S8x2048x2048 S8x2048x5632 S8x2048x5632 where
  lhsContracting := [2]
  rhsContracting := [1]
  lhsNonContracting := [1]
  rhsNonContracting := [2]
  lhsBatch := [0]
  rhsBatch := [0]
  wf := dot_S8x2048x2048_S8x2048x5632_S8x2048x5632_2_1_1_2_0_0_wf
def dot_S8x2048x5632_S8x5632x2048_S8x2048x2048_2_1_1_2_0_0 : DotDims S8x2048x5632 S8x5632x2048 S8x2048x2048 where
  lhsContracting := [2]
  rhsContracting := [1]
  lhsNonContracting := [1]
  rhsNonContracting := [2]
  lhsBatch := [0]
  rhsBatch := [0]
  wf := dot_S8x2048x5632_S8x5632x2048_S8x2048x2048_2_1_1_2_0_0_wf

class Facts : Prop extends Facts₀ where

variable [Facts]
-- ==== Proof.Pieces.lean ====
/-
  What each control case of the body leaves behind, as a value.

  The body has three cases along the innermost grid axis (the hidden-column blocks): at the first block it zeroes the
  accumulator and then adds; in the middle it adds; at the last block it adds and copies the accumulator into the output
  block. Every store covers its whole buffer and every load reads a whole buffer, so what a case leaves in the
  accumulator is the accumulating store's value over the input blocks and the accumulator it started from (the zero
  block, in the first case), and what the last case leaves in the output block is that value with a unit axis added.
  Stated for any float instance.
-/
import proofs.«115818_j1889785610412_2_alg».proof.Proof.Gen.KernelIdeal.Frame
import Idealize.ShloMosaic.Lib.Pipeline.Value
import Idealize.ShloMosaic.Lib.Tactic

set_option maxRecDepth 16384

noncomputable section

namespace Cert.Ffn.Pieces

open Cert.KernelIdeal Cert.KernelIdeal.Gen Idealize.ShloMosaic Idealize.ShloMosaic.TcCoe Idealize.SL.Sem
open Idealize.ShloMosaic.Tactic

variable {F : FTy → Type} [FloatOps F]

/-- The zero offsets of a rank-2 and of a rank-3 whole-buffer access. -/
theorem hz2 : (![0, 0] : Fin 2 → Nat) = fun _ => 0 := funext fun a => by fin_cases a <;> rfl
theorem hz3 : (![0, 0, 0] : Fin 3 → Nat) = fun _ => 0 := funext fun a => by fin_cases a <;> rfl

/-- First block: the accumulator ends at the accumulating store's value over the zero block. -/
theorem first (c : Dev nD) (i : grid0.Coords) (arg3 : Memref sig .tc .vmem S1x512x2048 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x512x2048 .f32) (harg7 : arg7.IsWhole) (arg8 : Memref sig .tc .vmem S512x2048 .f32) (harg8 : arg8.IsWhole) (hc0 : cond0_0 i) (hc1 : ¬cond0_1 i) (x0 : Vec F S1x512x2048 .bf16) (x1 : Vec F S1x2048x256 .bf16) (x2 : Vec F S1x2048x256 .bf16) (x3 : Vec F S1x256x2048 .bf16) :
    sout0_A_0 c i arg3 harg3 arg4 harg4 arg5 harg5 arg6 harg6 arg7 harg7 arg8 harg8 hc0 hc1 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread, harg8.read_unread,
    View.ld_unit_zero (S := S1x512x2048) hz3, View.ld_unit_zero (S := S1x2048x256) hz3, View.ld_unit_zero (S := S1x256x2048) hz3,
    View.ld_unit_zero (S := S512x2048) hz2]

/-- A middle block: the accumulator ends at the accumulating store's value over what it held. -/
theorem middle (c : Dev nD) (i : grid0.Coords) (arg3 : Memref sig .tc .vmem S1x512x2048 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : ¬cond0_1 i) (x0 : Vec F S1x512x2048 .bf16) (x1 : Vec F S1x2048x256 .bf16) (x2 : Vec F S1x2048x256 .bf16) (x3 : Vec F S1x256x2048 .bf16) (xs0 : Vec F S512x2048 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz2]
  simp only [View.readAt_eq_ld, harg3.read_unread, harg4.read_unread, harg5.read_unread, harg6.read_unread, harg8.read_unread,
    View.ld_unit_zero (S := S1x512x2048) hz3, View.ld_unit_zero (S := S1x2048x256) hz3, View.ld_unit_zero (S := S1x256x2048) hz3,
    View.ld_unit_zero (S := S512x2048) hz2]

/-- The last block: the accumulator likewise, -/
theorem last_acc (c : Dev nD) (i : grid0.Coords) (arg3 : Memref sig .tc .vmem S1x512x2048 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i) (x0 : Vec F S1x512x2048 .bf16) (x1 : Vec F S1x2048x256 .bf16) (x2 : Vec F S1x2048x256 .bf16) (x3 : Vec F S1x256x2048 .bf16) (xs0 : Vec F S512x2048 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x512x2048) hz3, View.ld_unit_zero (S := S1x2048x256) hz3, View.ld_unit_zero (S := S1x256x2048) hz3,
    View.ld_unit_zero (S := S512x2048) hz2]

/-- and the output block is that accumulator with a leading unit axis. -/
theorem last_out (c : Dev nD) (i : grid0.Coords) (arg3 : Memref sig .tc .vmem S1x512x2048 .bf16) (harg3 : arg3.IsWhole) (arg4 : Memref sig .tc .vmem S1x2048x256 .bf16) (harg4 : arg4.IsWhole) (arg5 : Memref sig .tc .vmem S1x2048x256 .bf16) (harg5 : arg5.IsWhole) (arg6 : Memref sig .tc .vmem S1x256x2048 .bf16) (harg6 : arg6.IsWhole) (arg7 : Memref sig .tc .vmem S1x512x2048 .f32) (harg7 : arg7.IsWhole) (arg8 : Memref sig .tc .vmem S512x2048 .f32) (harg8 : arg8.IsWhole) (hc0 : ¬cond0_0 i) (hc1 : cond0_1 i) (x0 : Vec F S1x512x2048 .bf16) (x1 : Vec F S1x2048x256 .bf16) (x2 : Vec F S1x2048x256 .bf16) (x3 : Vec F S1x256x2048 .bf16) (xs0 : Vec F S512x2048 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3, View.readCov_unit_zero (S := S512x2048) _ hz2]
  simp only [View.readAt_eq_ld, harg3.read_unread, harg4.read_unread, harg5.read_unread, harg6.read_unread, harg8.read_unread,
    View.ld_unit_zero (S := S1x512x2048) hz3, View.ld_unit_zero (S := S1x2048x256) hz3, View.ld_unit_zero (S := S1x256x2048) hz3,
    View.ld_unit_zero (S := S512x2048) hz2]

end Cert.Ffn.Pieces

end
-- ==== Proof.Cases.lean ====
/-
  The accumulator and the output block after each grid point, as the body's store values.

  The contents of the accumulator after point t are: at a first hidden-column block (t % 22 = 0) the accumulating
  store's value over the point's input blocks and the zero block; at every other point that value over the input blocks
  and what the point before left. At a last block (t % 22 = 21) the output block holds the new accumulator with a unit
  axis added. For any float instance.
-/
import proofs.«115818_j1889785610412_2_alg».proof.Proof.Pieces

set_option maxRecDepth 16384

noncomputable section

namespace Cert.Ffn.Cases

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- After a first block: the zero block plus this point's product. -/
theorem acc_first (c : Dev nD) (t : Fin cfg0.N) (h0 : t.val % 22 = 0) (h1 : ¬t.val % 22 = 21) :
    (outsAt0 m c t.val t.isLt).2 = k0_pay2 (iblk m c 0 t) (iblk m c 1 t) (iblk m c 2 t) (iblk m c 3 t) k0_pay1 := by
  rw [outsAt0_A m c t h0 h1]
  dsimp only
  exact Cert.Ffn.Pieces.first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- After a middle block: what the point before left plus this point's product. -/
theorem acc_middle (c : Dev nD) (t : Fin cfg0.N) (h0 : ¬t.val % 22 = 0) (h1 : ¬t.val % 22 = 21) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  rw [outsAt0_B m c t h0 h1]
  dsimp only
  exact Cert.Ffn.Pieces.middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- After a last block: likewise, -/
theorem acc_last (c : Dev nD) (t : Fin cfg0.N) (h0 : ¬t.val % 22 = 0) (h1 : t.val % 22 = 21) :
    (outsAt0 m c t.val t.isLt).2 = k0_pay2 (iblk m c 0 t) (iblk m c 1 t) (iblk m c 2 t) (iblk m c 3 t) (outsAt0 m c (t.val - 1) (Nat.lt_of_le_of_lt (Nat.sub_le _ _) t.isLt)).2 := by
  rw [outsAt0_C m c t h0 h1]
  dsimp only
  exact Cert.Ffn.Pieces.last_acc c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

/-- and the output block is the accumulating store's value with a unit axis added. -/
theorem out_last (c : Dev nD) (t : Fin cfg0.N) (h0 : ¬t.val % 22 = 0) (h1 : t.val % 22 = 21) :
    (outsAt0 m c t.val t.isLt).1 = k0_pay3 (k0_pay2 (iblk m c 0 t) (iblk m c 1 t) (iblk m c 2 t) (iblk m c 3 t) (outsAt0 m c (t.val - 1) (Nat.lt_of_le_of_lt (Nat.sub_le _ _) t.isLt)).2) := by
  rw [outsAt0_C m c t h0 h1]
  dsimp only
  exact Cert.Ffn.Pieces.last_out c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2

end Cert.Ffn.Cases

end
-- ==== Proof.LibBlockSum.lean ====
/-
  A finite sum cut into consecutive blocks of one length.

  A sum over the first `a * b` naturals is the sum, over the `a` blocks in order, of each block's `b` terms: the term
  at position `j` of block `s` sits at `s * b + j`. Only associativity and commutativity of the addition are used, so
  the regrouping holds in any commutative monoid — in particular on the extended reals, infinities included. The second
  form reads the whole sum and every block's sum over `Fin` index types, as a contraction over `a * b` positions cut
  into `a` contractions over `b` positions meets it.
-/
import Mathlib.Algebra.BigOperators.Fin
import Mathlib.Data.Fintype.BigOperators

namespace Cert.LibBlockSum

open Finset

variable {β : Type*} [AddCommMonoid β]

/-- The sum of `g` over the naturals below `a * b`, block by block. -/
theorem sum_range_mul (g : ℕ → β) (a b : ℕ) :
    ∑ n ∈ range (a * b), g n = ∑ s ∈ range a, ∑ j ∈ range b, g (s * b + j) := by
  induction a with
  | zero => simp
  | succ a ih => rw [Nat.succ_mul, sum_range_add, ih, sum_range_succ]

/-- The same regrouping over `Fin` index types: a sum over `n = a * b` positions is the sum over the `a` blocks of each
    block's sum over its `b` positions. -/
theorem sum_fin_blocks (g : ℕ → β) (a b n : ℕ) (hn : n = a * b) :
    ∑ k : Fin n, g k.val = ∑ s ∈ range a, ∑ j : Fin b, g (s * b + j.val) := by
  subst hn
  rw [Fin.sum_univ_eq_sum_range g (a * b), sum_range_mul]
  exact sum_congr rfl fun s _ => (Fin.sum_univ_eq_sum_range (fun j => g (s * b + j)) b).symm

end Cert.LibBlockSum
-- ==== Proof.Spec.lean ====
/-
  The mathematics of the per-expert gated feed-forward layer, as one function of the argument arrays.

  x is [16384, 2048]: 8 experts times 2048 rows each, row e * 2048 + g belonging to expert e. For expert e, row g and
  hidden column f, the two projections are  p1 = sum_k x[e*2048+g, k] * w1[e, k, f]  and  p3 = the same with w3; the
  hidden value is  p1 * logistic(p1) * p3 ; and the result is  out[e*2048+g, d] = sum_f hidden[e, g, f] * w2[e, f, d].

  The only law used between two arrangements of this sum: the 5632 hidden columns cut into 22 consecutive blocks of
  256, column s * 256 + l being position l of block s. It regroups a finite sum, so it holds on the extended reals with
  no finiteness assumption.
-/
import Idealize.ShloMosaic.PureOps.Ideal
import Idealize.ShloMosaic.Lib.ValueIdx
import proofs.«115818_j1889785610412_2_alg».proof.Proof.LibBlockSum

noncomputable section

namespace Cert.Ffn

open Idealize.ShloMosaic Idealize.ShloMosaic.ValueIdx

/-- The token array and the result, [16384, 2048]; -/
abbrev SX : Shape := ⟨2, ![16384, 2048]⟩
/-- the two up-projection weights, [8, 2048, 5632]; -/
abbrev SUp : Shape := ⟨3, ![8, 2048, 5632]⟩
/-- the down-projection weight, [8, 5632, 2048]. -/
abbrev SDown : Shape := ⟨3, ![8, 5632, 2048]⟩

variable (X : SX.Idx → EReal) (W1 : SUp.Idx → EReal) (W2 : SDown.Idx → EReal) (W3 : SUp.Idx → EReal)

/-- Row g of expert e in the flat token array. -/
def flatRow (e : Fin 8) (g : Fin 2048) : Fin 16384 :=
  ⟨e.val * 2048 + g.val, by have := e.isLt; have := g.isLt; omega⟩

/-- One up-projection: row g of expert e against column f of that expert's weight. -/
def proj (W : SUp.Idx → EReal) (e : Fin 8) (g : Fin 2048) (f : Fin 5632) : EReal :=
  ∑ k : Fin 2048, X (ix2 (flatRow e g) k) * W (ix3 e k f)

/-- The gated hidden value: p1 * logistic(p1) * p3. -/
def hidden (e : Fin 8) (g : Fin 2048) (f : Fin 5632) : EReal :=
  proj X W1 e g f * Ideal.logistic (proj X W1 e g f) * proj X W3 e g f

/-- The down-projection of the hidden row. -/
def expertOut (e : Fin 8) (g : Fin 2048) (d : Fin 2048) : EReal :=
  ∑ f : Fin 5632, hidden X W1 W3 e g f * W2 (ix3 e f d)

/-- The result array: flat row R belongs to expert R / 2048, at row R % 2048 of it. -/
def result : SX.Idx → EReal := fun j =>
  expertOut X W1 W2 W3 ⟨(j 0).val / 2048, by have := idx2_lt0 j; omega⟩
    ⟨(j 0).val % 2048, Nat.mod_lt _ (by norm_num)⟩ (j 1)

/-! ## The hidden columns in 22 blocks of 256 -/

/-- Column l of block s (s read modulo 22, so that the function is total on the naturals). -/
def col (s : ℕ) (l : Fin 256) : Fin 5632 :=
  ⟨(s % 22) * 256 + l.val, by have := l.isLt; have := Nat.mod_lt s (by norm_num : 0 < 22); omega⟩

/-- A sum over the 5632 columns is the sum over the 22 blocks of each block's 256 columns. -/
theorem sum_cols {β : Type*} [AddCommMonoid β] (T : Fin 5632 → β) :
    ∑ f : Fin 5632, T f = ∑ s ∈ Finset.range 22, ∑ l : Fin 256, T (col s l) := by
  have h := Cert.LibBlockSum.sum_fin_blocks
    (fun n => T ⟨n % 5632, Nat.mod_lt _ (by norm_num)⟩) 22 256 5632 (by norm_num)
  have hl : ∑ k : Fin 5632, T ⟨k.val % 5632, Nat.mod_lt _ (by norm_num)⟩ = ∑ f : Fin 5632, T f :=
    Finset.sum_congr rfl fun k _ => congrArg T (Fin.ext (Nat.mod_eq_of_lt k.isLt))
  rw [← hl, h]
  refine Finset.sum_congr rfl fun s hs => Finset.sum_congr rfl fun l _ => congrArg T (Fin.ext ?_)
  have hs' : s < 22 := Finset.mem_range.mp hs
  have := l.isLt
  show (s * 256 + l.val) % 5632 = (s % 22) * 256 + l.val
  omega

/-! ## One grid point's share -/

/-- The expert of row block q (the row blocks of 512 rows, four per expert, numbered 0 … 31; read modulo 8 so that the
    function is total). -/
def expertOf (q : ℕ) : Fin 8 := ⟨(q / 4) % 8, Nat.mod_lt _ (by norm_num)⟩

/-- Row r of row block q inside its expert. -/
def rowOf (q : ℕ) (r : Fin 512) : Fin 2048 :=
  ⟨(q % 4) * 512 + r.val, by have := r.isLt; have := Nat.mod_lt q (by norm_num : 0 < 4); omega⟩

/-- What column block s adds to row r of row block q, at result column d. -/
def share (q s : ℕ) (r : Fin 512) (d : Fin 2048) : EReal :=
  ∑ l : Fin 256, hidden X W1 W3 (expertOf q) (rowOf q r) (col s l) * W2 (ix3 (expertOf q) (col s l) d)

/-- The down-projection is the sum of the 22 column blocks' shares. -/
theorem expertOut_eq_shares (q : ℕ) (r : Fin 512) (d : Fin 2048) :
    expertOut X W1 W2 W3 (expertOf q) (rowOf q r) d = ∑ s ∈ Finset.range 22, share X W1 W2 W3 q s r d :=
  sum_cols fun f => hidden X W1 W3 (expertOf q) (rowOf q r) f * W2 (ix3 (expertOf q) f d)

end Cert.Ffn

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.LibFlatten.lean ====
/-
  Merging the two leading axes of a rank-3 array, read at an index. A [a, b, c] array reshaped to [R, c] (R = a · b)
  keeps its row-major order, so row r = p · b + q of the flat array is the slab (p, q) of the original, column by
  column; and the reshape back reads the flat array at that row. General in the extents.
-/
import Idealize.ShloMosaic.Lib.Pipeline.Value
import Idealize.ShloMosaic.Lib.ValueIdx

namespace Cert.LibFlatten

open Idealize.ShloMosaic Idealize.ShloMosaic.ValueIdx

variable {α : Type}

/-- A `[a, b, c]` array cast to `[R, c]` reads, at `(r, k)` with `r = p · b + q`, the operand at `(p, q, k)`. -/
theorem shapeCast_abc_Rc_apply {a b c R : ℕ} (X : (⟨3, ![a, b, c]⟩ : Shape).Idx → α)
    (h : (⟨3, ![a, b, c]⟩ : Shape).ShapeCasts ⟨2, ![R, c]⟩) (p : Fin a) (q : Fin b) (k : Fin c) (r : Fin R)
    (hr : r.val = p.val * b + q.val) : shapeCast ⟨2, ![R, c]⟩ X h (ix2 r k) = X (ix3 p q k) :=
  shapeCast_apply X h _ _ (by
    rw [Shape.rowMajor_val_three, Shape.rowMajor_val_two]
    show (p.val * b + q.val) * c + k.val = r.val * c + k.val
    rw [hr])

/-- A `[R, c]` array cast to `[a, b, c]` reads, at `(p, q, k)`, the operand at `(r, k)` with `r = p · b + q`. -/
theorem shapeCast_Rc_abc_apply {a b c R : ℕ} (Y : (⟨2, ![R, c]⟩ : Shape).Idx → α)
    (h : (⟨2, ![R, c]⟩ : Shape).ShapeCasts ⟨3, ![a, b, c]⟩) (p : Fin a) (q : Fin b) (k : Fin c) (r : Fin R)
    (hr : r.val = p.val * b + q.val) : shapeCast ⟨3, ![a, b, c]⟩ Y h (ix3 p q k) = Y (ix2 r k) :=
  shapeCast_apply Y h _ _ (by
    rw [Shape.rowMajor_val_two, Shape.rowMajor_val_three]
    show r.val * c + k.val = (p.val * b + q.val) * c + k.val
    rw [hr])

end Cert.LibFlatten
-- ==== Proof.Body.lean ====
/-
  One grid point's arithmetic, read at an index, on the extended reals.

  At a grid point the body sees a [1, 512, 2048] block of tokens, two [1, 2048, 256] blocks of the up-projection
  weights, a [1, 256, 2048] block of the down-projection weight, and the [512, 2048] accumulator. It forms the two
  512 x 256 products of the token block with the weight blocks, gates one by its logistic and multiplies by the other,
  multiplies that 512 x 256 matrix by the 256 x 2048 down block, and adds the result into the accumulator. A change of
  float format is the identity on the extended reals, and a matrix product into the zero matrix is the plain sum of
  products; so entry (r, d) of the new accumulator is the old entry plus
      sum_l  (p1[r, l] * logistic(p1[r, l]) * p3[r, l]) * down[l, d],     p_i[r, l] = sum_k tok[r, k] * up_i[k, l].
  The reset stores zeros, and the final store copies the accumulator into the output block.
-/
import proofs.«115818_j1889785610412_2_alg».proof.Proof.Gen.KernelIdeal.Skeleton
import proofs.«115818_j1889785610412_2_alg».proof.Proof.LibPlainDot
import proofs.«115818_j1889785610412_2_alg».proof.Proof.LibFlatten
import Idealize.ShloMosaic.Lib.Pipeline.Value
import Idealize.ShloMosaic.Lib.ValueIdx
import Idealize.ShloMosaic.PureOps.Ideal.Laws

noncomputable section

namespace Cert.Ffn.Body

open Cert.KernelIdeal Cert.KernelIdeal.Gen Idealize.ShloMosaic Idealize.ShloMosaic.ValueIdx

/-- A [1, a, b] block with its unit axis dropped: entry (p, q) is the block's entry (0, p, q). -/
theorem dropUnit {a b : ℕ} {α : Type} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) :=
  Cert.LibFlatten.shapeCast_abc_Rc_apply v h 0 p q p (by simp)

/-- An [a, b] matrix given a leading unit axis: entry (0, p, q) is the matrix's entry (p, q). -/
theorem addUnit {a b : ℕ} {α : Type} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 0 p q) = v (ix2 p q) :=
  Cert.LibFlatten.shapeCast_Rc_abc_apply v h 0 p q p (by simp)

/-- The product of a token block with an up-projection block, entry (r, l). -/
def upBlock (tok : Vec Ideal S1x512x2048 .bf16) (up : Vec Ideal S1x2048x256 .bf16) (r : Fin 512) (l : Fin 256) : EReal :=
  ∑ k : Fin 2048, tok (ix3 0 r k) * up (ix3 0 k l)

/-- What one point adds to accumulator entry (r, d). -/
def addend (tok : Vec Ideal S1x512x2048 .bf16) (up1 up3 : Vec Ideal S1x2048x256 .bf16) (down : Vec Ideal S1x256x2048 .bf16)
    (r : Fin 512) (d : Fin 2048) : EReal :=
  ∑ l : Fin 256, (upBlock tok up1 r l * Ideal.logistic (upBlock tok up1 r l) * upBlock tok up3 r l) * down (ix3 0 l d)

/-- The 512 x 2048 by 2048 x 256 matrix unit into the zero matrix, over blocks with their unit axes dropped. -/
theorem up_apply (tok : Vec Ideal S1x512x2048 .bf16) (up : Vec Ideal S1x2048x256 .bf16) (r : Fin 512) (l : Fin 256) :
    matmul dot_S512x2048_S2048x256_S512x256_1_0_0_1_n_n none
        (shapeCast S512x2048 tok shapeCasts_S1x512x2048_S512x2048 : FVec Ideal S512x2048 .bf16)
        (shapeCast S2048x256 up shapeCasts_S1x2048x256_S2048x256 : FVec Ideal S2048x256 .bf16)
        (constant S512x256 .f32 0x00000000#32) (ix2 r l)
      = upBlock tok up r l := by
  refine (Cert.LibPlainDot.matmul_zero_apply 512 2048 256 none _ _ (ix2 r l)).trans ?_
  unfold upBlock
  refine Finset.sum_congr rfl fun k _ => ?_
  exact congrArg₂ (· * ·) (dropUnit tok _ r k) (dropUnit up _ k l)

/-- The accumulating store's value at entry (r, d): the old entry plus the point's addend. -/
theorem pay2_apply (tok : Vec Ideal S1x512x2048 .bf16) (up1 up3 : Vec Ideal S1x2048x256 .bf16)
    (down : Vec Ideal S1x256x2048 .bf16) (acc : Vec Ideal S512x2048 .f32) (r : Fin 512) (d : Fin 2048) :
    k0_pay2 (F := Ideal) tok up1 up3 down acc (ix2 r d) = acc (ix2 r d) + addend tok up1 up3 down r d := by
  unfold k0_pay2
  rw [shapeCast_self]
  refine congrArg (acc (ix2 r d) + ·) ?_
  refine (Cert.LibPlainDot.matmul_zero_apply 512 256 2048 none _ _ (ix2 r d)).trans ?_
  unfold addend
  refine Finset.sum_congr rfl fun l _ => ?_
  refine congrArg₂ (· * ·) ?_ (dropUnit down _ l d)
  rw [← up_apply tok up1 r l, ← up_apply tok up3 r l]
  rfl

/-- The reset store's value: zero everywhere. -/
theorem pay1_apply (j : S512x2048.Idx) : k0_pay1 (F := Ideal) j = 0 := by
  unfold k0_pay1
  rw [shapeCast_self]
  exact Ideal.ofBits_zero_f32

/-- The output store's value: the accumulator, with a leading unit axis. -/
theorem pay3_apply (acc : Vec Ideal S512x2048 .f32) (r : Fin 512) (d : Fin 2048) :
    k0_pay3 (F := Ideal) acc (ix3 0 r d) = acc (ix2 r d) := by
  unfold k0_pay3
  exact addUnit acc _ r d

end Cert.Ffn.Body

end
-- ==== Proof.Blocks.lean ====
/-
  The blocks a grid point sees, as entries of the argument arrays.

  Before the region the host reshapes the token array [16384, 2048] to [8, 2048, 2048] and changes the float format of all
  four arrays; on the extended reals a change of format is the identity, so the arrays the region finds are the
  arguments, the tokens re-indexed by expert. Grid point number t (the last axis innermost) is row block q = t / 22 of
  512 rows (expert q / 4, rows (q % 4) * 512 ... of it) and hidden-column block s = t % 22 of 256 columns. The token block
  at t is rows of that row block, the two up-projection blocks are columns s * 256 ... of that expert's weights, and the
  down-projection block is rows s * 256 ... of that expert's down weight. So what point t adds to accumulator entry
  (r, d) is the specification's share of column block s for row r of row block q.
-/
import proofs.«115818_j1889785610412_2_alg».proof.Proof.Gen.KernelIdeal.Frame
import proofs.«115818_j1889785610412_2_alg».proof.Proof.Spec
import proofs.«115818_j1889785610412_2_alg».proof.Proof.Body
import Idealize.ShloMosaic.Lib.StableHlo.Run

set_option maxRecDepth 16384

noncomputable section

namespace Cert.Ffn.Blocks

open Cert.KernelIdeal Cert.KernelIdeal.Gen Idealize.ShloMosaic Idealize.ShloMosaic.TcCoe Idealize.SL.Sem
open Idealize.ShloMosaic.ValueIdx Cert.Ffn Cert.Ffn.Body

variable (m : (ℓ : Loc nD τ sig) → Buf (Elt Ideal) ℓ)

/-- The four argument arrays on core c, as functions of an index. -/
abbrev argX (c : Dev nD) : SX.Idx → EReal := m ((c : Thread nD τ).loc main_arg0)
abbrev argW1 (c : Dev nD) : SUp.Idx → EReal := m ((c : Thread nD τ).loc main_arg1)
abbrev argW2 (c : Dev nD) : SDown.Idx → EReal := m ((c : Thread nD τ).loc main_arg2)
abbrev argW3 (c : Dev nD) : SUp.Idx → EReal := m ((c : Thread nD τ).loc main_arg3)

/-! ## The arrays the region finds -/

theorem found_tokens (c : Dev nD) : (V m c main_v1 : S8x2048x2048.Idx → EReal)
    = truncf .bf16 (shapeCast S8x2048x2048 (m ((c : Thread nD τ).loc main_arg0)) shapeCasts_S16384x2048_S8x2048x2048 : FVec Ideal S8x2048x2048 .f32) bitsLt_bf16_f32 := by
  show StableHlo.after hostOps0 (fun b => m (c, b)) (Proc.devRef .tc main_v1) = _
  after_results <;> rfl

theorem found_up1 (c : Dev nD) : @Eq (S8x2048x5632.Idx → EReal) (V m c main_v2)
      (truncf (F := Ideal) .bf16 (m ((c : Thread nD τ).loc main_arg1) : FVec Ideal S8x2048x5632 .f32) bitsLt_bf16_f32) := by
  show StableHlo.after hostOps0 (fun b => m (c, b)) (Proc.devRef .tc main_v2) = _
  after_results <;> rfl

theorem found_up3 (c : Dev nD) : @Eq (S8x2048x5632.Idx → EReal) (V m c main_v3)
      (truncf (F := Ideal) .bf16 (m ((c : Thread nD τ).loc main_arg3) : FVec Ideal S8x2048x5632 .f32) bitsLt_bf16_f32) := by
  show StableHlo.after hostOps0 (fun b => m (c, b)) (Proc.devRef .tc main_v3) = _
  after_results <;> rfl

theorem found_down (c : Dev nD) : @Eq (S8x5632x2048.Idx → EReal) (V m c main_v4)
      (truncf (F := Ideal) .bf16 (m ((c : Thread nD τ).loc main_arg2) : FVec Ideal S8x5632x2048 .f32) bitsLt_bf16_f32) := by
  show StableHlo.after hostOps0 (fun b => m (c, b)) (Proc.devRef .tc main_v4) = _
  after_results <;> rfl

/-- The token array the region finds, at (e, g, k): the argument at flat row e * 2048 + g. -/
theorem tokens_apply (c : Dev nD) (e : Fin 8) (g k : Fin 2048) :
    (V m c main_v1 : S8x2048x2048.Idx → EReal) (ix3 e g k) = argX m c (ix2 (flatRow e g) k) := by
  rw [found_tokens]
  exact Cert.LibFlatten.shapeCast_Rc_abc_apply _ _ e g k (flatRow e g) rfl

/-! ## The index maps over the grid, in closed form -/

theorem index_tok : ∀ t : Fin cfg0.N, win0_0.index t 0 = t.val / 88 ∧ win0_0.index t 1 = t.val / 22 % 4 ∧ win0_0.index t 2 = 0 :=
  (by decide +kernel : ∀ t : Fin grid0.N, win0_0.index t 0 = t.val / 88 ∧ win0_0.index t 1 = t.val / 22 % 4 ∧ win0_0.index t 2 = 0)
theorem index_up1 : ∀ t : Fin cfg0.N, win0_1.index t 0 = t.val / 88 ∧ win0_1.index t 1 = 0 ∧ win0_1.index t 2 = t.val % 22 :=
  (by decide +kernel : ∀ t : Fin grid0.N, win0_1.index t 0 = t.val / 88 ∧ win0_1.index t 1 = 0 ∧ win0_1.index t 2 = t.val % 22)
theorem index_up3 : ∀ t : Fin cfg0.N, win0_2.index t 0 = t.val / 88 ∧ win0_2.index t 1 = 0 ∧ win0_2.index t 2 = t.val % 22 :=
  (by decide +kernel : ∀ t : Fin grid0.N, win0_2.index t 0 = t.val / 88 ∧ win0_2.index t 1 = 0 ∧ win0_2.index t 2 = t.val % 22)
theorem index_down : ∀ t : Fin cfg0.N, win0_3.index t 0 = t.val / 88 ∧ win0_3.index t 1 = t.val % 22 ∧ win0_3.index t 2 = 0 :=
  (by decide +kernel : ∀ t : Fin grid0.N, win0_3.index t 0 = t.val / 88 ∧ win0_3.index t 1 = t.val % 22 ∧ win0_3.index t 2 = 0)

theorem lt_N (t : Fin cfg0.N) : t.val < 704 := lt_of_lt_of_eq t.isLt (show cfg0.N = 704 from N_0)

/-! ## The input blocks at coordinates -/

/-- The token block at point t, entry (0, r, k). -/
theorem tok_block (c : Dev nD) (t : Fin cfg0.N) (r : Fin 512) (k : Fin 2048) :
    (iblk m c 0 t : Vec Ideal S1x512x2048 .bf16) (ix3 0 r k)
      = argX m c (ix2 (flatRow (expertOf (t.val / 22)) (rowOf (t.val / 22) r)) k) := by
  have hN := lt_N t
  obtain ⟨h0, h1, h2⟩ := index_tok t
  unfold iblk
  rw [View.read_apply]
  refine Eq.trans (congrArg (V m c main_v1 : S8x2048x2048.Idx → EReal) ?_)
    (tokens_apply m c (expertOf (t.val / 22)) (rowOf (t.val / 22) r) k)
  funext a
  apply Fin.ext
  match a with
  | ⟨0, _⟩ => show win0_0.index t 0 * 1 + 1 * 0 = (t.val / 22 / 4) % 8; rw [h0]; omega
  | ⟨1, _⟩ => show win0_0.index t 1 * 512 + 1 * r.val = (t.val / 22 % 4) * 512 + r.val; rw [h1]; omega
  | ⟨2, _⟩ => show win0_0.index t 2 * 2048 + 1 * k.val = k.val; rw [h2]; omega

/-- The first up-projection block at point t, entry (0, k, l). -/
theorem up1_block (c : Dev nD) (t : Fin cfg0.N) (k : Fin 2048) (l : Fin 256) :
    (iblk m c 1 t : Vec Ideal S1x2048x256 .bf16) (ix3 0 k l)
      = argW1 m c (ix3 (expertOf (t.val / 22)) k (col (t.val % 22) l)) := by
  have hN := lt_N t
  obtain ⟨h0, h1, h2⟩ := index_up1 t
  unfold iblk
  rw [View.read_apply]
  refine Eq.trans (congrArg (V m c main_v2 : S8x2048x5632.Idx → EReal) ?_)
    (congrFun (found_up1 m c) (ix3 (expertOf (t.val / 22)) k (col (t.val % 22) l)))
  funext a
  apply Fin.ext
  match a with
  | ⟨0, _⟩ => show win0_1.index t 0 * 1 + 1 * 0 = (t.val / 22 / 4) % 8; rw [h0]; omega
  | ⟨1, _⟩ => show win0_1.index t 1 * 2048 + 1 * k.val = k.val; rw [h1]; omega
  | ⟨2, _⟩ => show win0_1.index t 2 * 256 + 1 * l.val = (t.val % 22 % 22) * 256 + l.val; rw [h2]; omega

/-- The second up-projection block at point t, entry (0, k, l). -/
theorem up3_block (c : Dev nD) (t : Fin cfg0.N) (k : Fin 2048) (l : Fin 256) :
    (iblk m c 2 t : Vec Ideal S1x2048x256 .bf16) (ix3 0 k l)
      = argW3 m c (ix3 (expertOf (t.val / 22)) k (col (t.val % 22) l)) := by
  have hN := lt_N t
  obtain ⟨h0, h1, h2⟩ := index_up3 t
  unfold iblk
  rw [View.read_apply]
  refine Eq.trans (congrArg (V m c main_v3 : S8x2048x5632.Idx → EReal) ?_)
    (congrFun (found_up3 m c) (ix3 (expertOf (t.val / 22)) k (col (t.val % 22) l)))
  funext a
  apply Fin.ext
  match a with
  | ⟨0, _⟩ => show win0_2.index t 0 * 1 + 1 * 0 = (t.val / 22 / 4) % 8; rw [h0]; omega
  | ⟨1, _⟩ => show win0_2.index t 1 * 2048 + 1 * k.val = k.val; rw [h1]; omega
  | ⟨2, _⟩ => show win0_2.index t 2 * 256 + 1 * l.val = (t.val % 22 % 22) * 256 + l.val; rw [h2]; omega

/-- The down-projection block at point t, entry (0, l, d). -/
theorem down_block (c : Dev nD) (t : Fin cfg0.N) (l : Fin 256) (d : Fin 2048) :
    (iblk m c 3 t : Vec Ideal S1x256x2048 .bf16) (ix3 0 l d)
      = argW2 m c (ix3 (expertOf (t.val / 22)) (col (t.val % 22) l) d) := by
  have hN := lt_N t
  obtain ⟨h0, h1, h2⟩ := index_down t
  unfold iblk
  rw [View.read_apply]
  refine Eq.trans (congrArg (V m c main_v4 : S8x5632x2048.Idx → EReal) ?_)
    (congrFun (found_down m c) (ix3 (expertOf (t.val / 22)) (col (t.val % 22) l) d))
  funext a
  apply Fin.ext
  match a with
  | ⟨0, _⟩ => show win0_3.index t 0 * 1 + 1 * 0 = (t.val / 22 / 4) % 8; rw [h0]; omega
  | ⟨1, _⟩ => show win0_3.index t 1 * 256 + 1 * l.val = (t.val % 22 % 22) * 256 + l.val; rw [h1]; omega
  | ⟨2, _⟩ => show win0_3.index t 2 * 2048 + 1 * d.val = d.val; rw [h2]; omega

/-! ## The point's addend is the specification's share -/

theorem upBlock1_eq (c : Dev nD) (t : Fin cfg0.N) (r : Fin 512) (l : Fin 256) :
    upBlock (iblk m c 0 t) (iblk m c 1 t) r l
      = proj (argX m c) (argW1 m c) (expertOf (t.val / 22)) (rowOf (t.val / 22) r) (col (t.val % 22) l) := by
  unfold upBlock proj
  exact Finset.sum_congr rfl fun k _ => congrArg₂ (· * ·) (tok_block m c t r k) (up1_block m c t k l)

theorem upBlock3_eq (c : Dev nD) (t : Fin cfg0.N) (r : Fin 512) (l : Fin 256) :
    upBlock (iblk m c 0 t) (iblk m c 2 t) r l
      = proj (argX m c) (argW3 m c) (expertOf (t.val / 22)) (rowOf (t.val / 22) r) (col (t.val % 22) l) := by
  unfold upBlock proj
  exact Finset.sum_congr rfl fun k _ => congrArg₂ (· * ·) (tok_block m c t r k) (up3_block m c t k l)

theorem addend_eq_share (c : Dev nD) (t : Fin cfg0.N) (r : Fin 512) (d : Fin 2048) :
    addend (iblk m c 0 t) (iblk m c 1 t) (iblk m c 2 t) (iblk m c 3 t) r d
      = share (argX m c) (argW1 m c) (argW2 m c) (argW3 m c) (t.val / 22) (t.val % 22) r d := by
  unfold addend share hidden
  refine Finset.sum_congr rfl fun l _ => ?_
  rw [upBlock1_eq m c t r l, upBlock3_eq m c t r l, down_block m c t l d]

end Cert.Ffn.Blocks

end
-- ==== Proof.Accum.lean ====
/-
  The accumulator along the grid, on the extended reals.

  Along a row block's 22 hidden-column blocks the accumulator is reset and then gathers one share per point: after the
  point with column block s it holds, at (r, d), the sum of the shares of column blocks 0 … s of that row block. By
  induction on the point number: a first block starts from zero, every other block adds to what the point before
  left, and the point before is in the same row block with the column block one less. At the last column block the
  sum is over all 22 shares, which is the down-projection of the whole hidden row; the output block then holds it.
-/
import proofs.«115818_j1889785610412_2_alg».proof.Proof.Cases
import proofs.«115818_j1889785610412_2_alg».proof.Proof.Blocks

set_option maxRecDepth 16384

noncomputable section

namespace Cert.Ffn.Accum

open Cert.KernelIdeal Cert.KernelIdeal.Gen Idealize.ShloMosaic Idealize.ShloMosaic.TcCoe Idealize.SL.Sem
open Idealize.ShloMosaic.ValueIdx Cert.Ffn Cert.Ffn.Body Cert.Ffn.Blocks Cert.Ffn.Cases

variable (m : (ℓ : Loc nD τ sig) → Buf (Elt Ideal) ℓ)

/-- The share of column block s for row r of row block q, over core c's argument arrays. -/
abbrev shareAt (c : Dev nD) (q s : ℕ) (r : Fin 512) (d : Fin 2048) : EReal :=
  share (argX m c) (argW1 m c) (argW2 m c) (argW3 m c) q s r d

/-- After a first column block the accumulator holds that block's share. -/
theorem step_first (c : Dev nD) (t : Fin cfg0.N) (h0 : t.val % 22 = 0) (h1 : ¬t.val % 22 = 21) (r : Fin 512) (d : Fin 2048) :
    ((outsAt0 m c t.val t.isLt).2 : Vec Ideal S512x2048 .f32) (ix2 r d) = shareAt m c (t.val / 22) (t.val % 22) r d := by
  refine (congrFun (acc_first m c t h0 h1) (ix2 r d)).trans ?_
  refine (pay2_apply (iblk m c 0 t) (iblk m c 1 t) (iblk m c 2 t) (iblk m c 3 t) (k0_pay1 (F := Ideal)) r d).trans ?_
  rw [pay1_apply, zero_add]
  exact addend_eq_share m c t r d

/-- After any other column block it holds what the point before left plus the block's share. -/
theorem step_next (c : Dev nD) (t : Fin cfg0.N) (h0 : ¬t.val % 22 = 0) (r : Fin 512) (d : Fin 2048) :
    ((outsAt0 m c t.val t.isLt).2 : Vec Ideal S512x2048 .f32) (ix2 r d)
      = ((outsAt0 m c (t.val - 1) (Nat.lt_of_le_of_lt (Nat.sub_le _ _) t.isLt)).2 : Vec Ideal S512x2048 .f32) (ix2 r d)
        + shareAt m c (t.val / 22) (t.val % 22) r d := by
  by_cases h1 : t.val % 22 = 21
  · refine (congrFun (acc_last m c t h0 h1) (ix2 r d)).trans ?_
    refine (pay2_apply (iblk m c 0 t) (iblk m c 1 t) (iblk m c 2 t) (iblk m c 3 t) _ r d).trans ?_
    rw [addend_eq_share m c t r d]
  · refine (congrFun (acc_middle m c t h0 h1) (ix2 r d)).trans ?_
    refine (pay2_apply (iblk m c 0 t) (iblk m c 1 t) (iblk m c 2 t) (iblk m c 3 t) _ r d).trans ?_
    rw [addend_eq_share m c t r d]

/-- The accumulator after point n: the shares of column blocks 0 … n % 22 of row block n / 22. -/
theorem acc_apply (c : Dev nD) (n : ℕ) : ∀ (h : n < cfg0.N) (r : Fin 512) (d : Fin 2048),
    ((outsAt0 m c n h).2 : Vec Ideal S512x2048 .f32) (ix2 r d)
      = ∑ s ∈ Finset.range (n % 22 + 1), shareAt m c (n / 22) s r d := by
  induction n with
  | zero =>
    intro h r d
    refine (step_first m c ⟨0, h⟩ (Nat.zero_mod 22) (by show ¬(0 % 22 = 21); decide) r d).trans ?_
    show shareAt m c (0 / 22) (0 % 22) r d = _
    simp [Finset.sum_range_one]
  | succ n ih =>
    intro h r d
    have hN : n + 1 < 704 := lt_of_lt_of_eq h (show cfg0.N = 704 from N_0)
    by_cases h0 : (n + 1) % 22 = 0
    · have h1 : ¬(n + 1) % 22 = 21 := by omega
      refine (step_first m c ⟨n + 1, h⟩ h0 h1 r d).trans ?_
      show shareAt m c ((n + 1) / 22) ((n + 1) % 22) r d = _
      rw [h0, zero_add, Finset.sum_range_one]
    · refine (step_next m c ⟨n + 1, h⟩ h0 r d).trans ?_
      show ((outsAt0 m c n (Nat.lt_of_succ_lt h)).2 : Vec Ideal S512x2048 .f32) (ix2 r d)
          + shareAt m c ((n + 1) / 22) ((n + 1) % 22) r d = _
      rw [ih (Nat.lt_of_succ_lt h) r d]
      have e1 : (n + 1) / 22 = n / 22 := by omega
      have e2 : (n + 1) % 22 = n % 22 + 1 := by omega
      rw [e1, e2, Finset.sum_range_succ _ (n % 22 + 1)]

/-- At a last column block the output block holds the down-projection of the whole hidden row. -/
theorem out_apply (c : Dev nD) (t : Fin cfg0.N) (h1 : t.val % 22 = 21) (r : Fin 512) (d : Fin 2048) :
    ((outsAt0 m c t.val t.isLt).1 : Vec Ideal S1x512x2048 .f32) (ix3 0 r d)
      = expertOut (argX m c) (argW1 m c) (argW2 m c) (argW3 m c) (expertOf (t.val / 22)) (rowOf (t.val / 22) r) d := by
  have h0 : ¬t.val % 22 = 0 := by omega
  refine (congrFun (out_last m c t h0 h1) (ix3 0 r d)).trans ?_
  refine (pay3_apply _ r d).trans ?_
  refine (congrFun (acc_last m c t h0 h1) (ix2 r d)).symm.trans ?_
  rw [acc_apply m c t.val t.isLt r d, h1, expertOut_eq_shares]

end Cert.Ffn.Accum

end
-- ==== Proof.Final.lean ====
/-
  From the output blocks to the result array, and the run.

  The output window writes its block back only after a last hidden-column block, and the point that does so for row
  block q writes rows (q % 4) * 512 … of expert q / 4: every entry (e, g, d) of the region's [8, 2048, 2048] result lies
  in exactly the block of the point (e * 4 + g / 512) * 22 + 21, and that block holds the down-projection of the hidden
  rows. So the region's result array is the down-projection everywhere; the host's reshape after the region re-indexes
  it by flat row e * 2048 + g, which is the specification's function.
-/
import proofs.«115818_j1889785610412_2_alg».proof.Proof.Accum
import Idealize.ShloMosaic.Lib.Pipeline.Value
import Idealize.ShloMosaic.Lib.StableHlo.Run

set_option maxRecDepth 16384

noncomputable section

namespace Cert.Ffn.Final

open Cert.KernelIdeal Cert.KernelIdeal.Gen Idealize.ShloMosaic Idealize.ShloMosaic.TcCoe Idealize.SL.Sem
open Idealize.ShloMosaic.ValueIdx Cert.Ffn Cert.Ffn.Blocks Cert.Ffn.Accum
open Idealize.ShloMosaic.Pipeline (Dat)

variable (m : (ℓ : Loc nD τ sig) → Buf (Elt Ideal) ℓ) (ρ : Dev nD → PrngReg)

/-- The region's result array: entry (e, g, d) is the down-projection of hidden row g of expert e. -/
def regionOut (c : Dev nD) : S8x2048x2048.Idx → EReal := fun j =>
  expertOut (argX m c) (argW1 m c) (argW2 m c) (argW3 m c) (j 0) (j 1) (j 2)

/-- The output window's index map over the grid, in closed form. -/
theorem index_out : ∀ t : Fin cfg0.N, win0_4.index t 0 = t.val / 88 ∧ win0_4.index t 1 = t.val / 22 % 4 ∧ win0_4.index t 2 = 0 :=
  (by decide +kernel : ∀ t : Fin grid0.N, win0_4.index t 0 = t.val / 88 ∧ win0_4.index t 1 = t.val / 22 % 4 ∧ win0_4.index t 2 = 0)

/-- The output block after a last column block, at any entry of the block. -/
theorem out_block (c : Dev nD) (t : Fin cfg0.N) (h1 : t.val % 22 = 21) (y : S1x512x2048.Idx) :
    ((outsAt0 m c t.val t.isLt).1 : Vec Ideal S1x512x2048 .f32) y
      = expertOut (argX m c) (argW1 m c) (argW2 m c) (argW3 m c) (expertOf (t.val / 22)) (rowOf (t.val / 22) (y 1)) (y 2) := by
  obtain ⟨r, d, rfl⟩ : ∃ (r : Fin 512) (d : Fin 2048), y = ix3 0 r d :=
    ⟨y 1, y 2, funext fun a => by
      match a with
      | ⟨0, _⟩ =>
        apply Fin.ext
        have h : (y 0).val < 1 := (y 0).isLt
        show (y 0).val = 0
        omega
      | ⟨1, _⟩ => rfl
      | ⟨2, _⟩ => rfl⟩
  exact out_apply m c t h1 r d

/-- What a flushing point writes back is its block of the region's result array. -/
theorem flushed_eq (c : Dev nD) (t : Fin cfg0.N) (hf : (cfg0.win 4).flush t = true) :
    (dats m 0 c).flushed 4 t = ((cfg0.win 4).blk t).view.read (Elt Ideal) (regionOut m c) := by
  have h21 : t.val % 22 = 21 := (flush0_4 t).mp hf
  have hN := lt_N t
  obtain ⟨i0, i1, i2⟩ := index_out t
  show (cfg0.win 4).cut (grid0.coords t) ((dats m 0 c).after 4 t) = _
  rw [after0_4]
  funext y
  have hy0 : (y 0).val < 1 := (y 0).isLt
  show ((outsAt0 m c t.val t.isLt).1 : Vec Ideal S1x512x2048 .f32) y = regionOut m c (((cfg0.win 4).blk t).view.emb y)
  refine (out_block m c t h21 y).trans ?_
  have e : ((cfg0.win 4).blk t).view.emb y = ix3 (expertOf (t.val / 22)) (rowOf (t.val / 22) (y 1)) (y 2) := by
    funext a
    apply Fin.ext
    match a with
    | ⟨0, _⟩ => show win0_4.index t 0 * 1 + 1 * (y 0).val = (t.val / 22 / 4) % 8; rw [i0]; omega
    | ⟨1, _⟩ => show win0_4.index t 1 * 512 + 1 * (y 1).val = (t.val / 22 % 4) * 512 + (y 1).val; rw [i1]; omega
    | ⟨2, _⟩ => show win0_4.index t 2 * 2048 + 1 * (y 2).val = (y 2).val; rw [i2]; omega
  rw [e]
  rfl

/-- The point that writes back the block holding entry i. -/
def pointOf (i : S8x2048x2048.Idx) : Fin cfg0.N :=
  ⟨((i 0).val * 4 + (i 1).val / 512) * 22 + 21, by
    have h0 : (i 0).val < 8 := (i 0).isLt
    have h1 : (i 1).val < 2048 := (i 1).isLt
    rw [show cfg0.N = 704 from N_0]; omega⟩

/-- Every entry of the region's result array is in the block of a point that writes it back. -/
theorem cover (i : S8x2048x2048.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 2048 := (i 2).isLt
  have hv : (pointOf i).val = ((i 0).val * 4 + (i 1).val / 512) * 22 + 21 := rfl
  refine ⟨pointOf i, (flush0_4 _).mpr (by rw [hv]; omega), ?_⟩
  obtain ⟨i0, i1, i2⟩ := index_out (pointOf i)
  show i ∈ ((View.whole main_v5).slice (win0_4.rect (pointOf i))).set
  rw [View.set_slice_whole, Rect.mem_set_unit]
  intro a
  match a with
  | ⟨0, _⟩ =>
    show win0_4.index (pointOf i) 0 * 1 ≤ (i 0).val ∧ (i 0).val < win0_4.index (pointOf i) 0 * 1 + 1
    rw [i0, hv]; omega
  | ⟨1, _⟩ =>
    show win0_4.index (pointOf i) 1 * 512 ≤ (i 1).val ∧ (i 1).val < win0_4.index (pointOf i) 1 * 512 + 512
    rw [i1, hv]; omega
  | ⟨2, _⟩ =>
    show win0_4.index (pointOf i) 2 * 2048 ≤ (i 2).val ∧ (i 2).val < win0_4.index (pointOf i) 2 * 2048 + 2048
    rw [i2]; omega

/-- The region's result array after the run. -/
theorem region_final (c : Dev nD) : (dats m 0 c).arrAt 4 cfg0.N = regionOut m c :=
  (dats m 0 c).arrAt_eq_of_cover 4 (regionOut m c) (flushed_eq m c) cover

/-- The region's result array reshaped to [16384, 2048] is the specification's function of the arguments. -/
theorem reshape_regionOut (c : Dev nD) :
    (shapeCast S16384x2048 (regionOut m c) shapeCasts_S8x2048x2048_S16384x2048 : S16384x2048.Idx → EReal)
      = result (argX m c) (argW1 m c) (argW2 m c) (argW3 m c) := by
  funext (j : SX.Idx)
  have h0 := idx2_lt0 j
  have hr : (j 0).val = ((j 0).val / 2048) * 2048 + (j 0).val % 2048 := by omega
  have e : (shapeCast S16384x2048 (regionOut m c) shapeCasts_S8x2048x2048_S16384x2048 : S16384x2048.Idx → EReal) j
      = regionOut m c (ix3 ⟨(j 0).val / 2048, by omega⟩ ⟨(j 0).val % 2048, Nat.mod_lt _ (by norm_num)⟩ (j 1)) := by
    conv_lhs => rw [eq_ix2 j]
    exact Cert.LibFlatten.shapeCast_abc_Rc_apply _ _ ⟨(j 0).val / 2048, by omega⟩ ⟨(j 0).val % 2048, Nat.mod_lt _ (by norm_num)⟩ (j 1) (j 0) hr
  exact e.trans rfl

/-- The program's result after the host reshape that follows the region. -/
theorem tail_eq (c : Dev nD) :
    Pipeline.afterTail₀ cfgs (dats m) 0 (V0 m) [hostOps1] c main_v6
      = result (argX m c) (argW1 m c) (argW2 m c) (argW3 m c) := by
  refine Eq.trans ?_ (reshape_regionOut m c)
  unfold Pipeline.afterTail₀
  show StableHlo.after hostOps1 _ (Proc.devRef .tc main_v6) = _
  after_results
  exact congrArg (fun A => (shapeCast S16384x2048 A shapeCasts_S8x2048x2048_S16384x2048 : S16384x2048.Idx → EReal))
    ((Pipeline.withArrays_arr spec0 launch0.win.arr_inj c _ _ 4).trans (region_final m c))

/-- The run, read: the result at the specification's function of the arguments, the arguments unchanged. -/
theorem run : θ_run defs (onTc (τ := τ) (main (F := Ideal))) ⟨m, fun _ => 0, ρ⟩ fun r => ∀ c : Dev nD,
      r.2.mem ((c.tc : Thread nD τ).loc main_v6) = result (argX m c) (argW1 m c) (argW2 m c) (argW3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Ffn.Final

end
-- ==== Proof.RefSide.lean ====
/-
  The reference computes the specification's function.

  The reference reshapes the tokens to [8, 2048, 2048], takes the two batched up-projections, forms the gate as
  p * (1 / (1 + exp(-p))), multiplies by the other projection, takes the batched down-projection and reshapes back to
  [16384, 2048]. On the extended reals 1 / (1 + exp(-p)) is the logistic function by definition, a batched product is a
  sum over the contracted axis for each batch index, and the reshapes re-index rows by e * 2048 + g.
-/
import proofs.«115818_j1889785610412_2_alg».proof.Proof.Gen.ReferenceIdeal.Read
import proofs.«115818_j1889785610412_2_alg».proof.Proof.Spec
import proofs.«115818_j1889785610412_2_alg».proof.Proof.LibFlatten

noncomputable section

namespace Cert.Ffn.RefSide

open Cert.ReferenceIdeal Cert.ReferenceIdeal.Read Idealize.ShloMosaic Idealize.ShloMosaic.ValueIdx Cert.Ffn

variable (X : SX.Idx → EReal) (W1 : SUp.Idx → EReal) (W2 : SDown.Idx → EReal) (W3 : SUp.Idx → EReal)

/-- The pattern of 1.0 is the real number one. -/
theorem ofBits_one : Ideal.ofBits .f32 0x3F800000#32 = 1 := by
  simp [Ideal.ofBits, Ideal.ieee, -EReal.coe_mul]; norm_num

/-- The reshaped tokens at (e, g, k): the flat array at row e * 2048 + g. -/
theorem tokens_apply (e : Fin 8) (g k : Fin 2048) :
    val_main_v0 (F := Ideal) X (ix3 e g k) = X (ix2 (flatRow e g) k) :=
  Cert.LibFlatten.shapeCast_Rc_abc_apply X _ e g k (flatRow e g) rfl

theorem lidx_up (e : Fin 8) (g : Fin 2048) (f : Fin 5632) (k : Fin 2048) : lidx_main_v1 (ix3 e g f) k = ix3 e g k :=
  funext fun a => Fin.ext (by match a with | ⟨0, _⟩ => rfl | ⟨1, _⟩ => rfl | ⟨2, _⟩ => rfl)
theorem ridx_up (e : Fin 8) (g : Fin 2048) (f : Fin 5632) (k : Fin 2048) : ridx_main_v1 (ix3 e g f) k = ix3 e k f :=
  funext fun a => Fin.ext (by match a with | ⟨0, _⟩ => rfl | ⟨1, _⟩ => rfl | ⟨2, _⟩ => rfl)
theorem lidx_down (e : Fin 8) (g d : Fin 2048) (f : Fin 5632) : lidx_main_v5 (ix3 e g d) f = ix3 e g f :=
  funext fun a => Fin.ext (by match a with | ⟨0, _⟩ => rfl | ⟨1, _⟩ => rfl | ⟨2, _⟩ => rfl)
theorem ridx_down (e : Fin 8) (g d : Fin 2048) (f : Fin 5632) : ridx_main_v5 (ix3 e g d) f = ix3 e f d :=
  funext fun a => Fin.ext (by match a with | ⟨0, _⟩ => rfl | ⟨1, _⟩ => rfl | ⟨2, _⟩ => rfl)

/-- The first up-projection at (e, g, f). -/
theorem up1_apply (e : Fin 8) (g : Fin 2048) (f : Fin 5632) :
    val_main_v1 (F := Ideal) X W1 (ix3 e g f) = proj X W1 e g f := by
  rw [val_main_v1_apply]
  unfold proj
  refine Finset.sum_congr rfl fun k _ => ?_
  rw [lidx_up, ridx_up, tokens_apply]

/-- The second up-projection at (e, g, f) (the same dimension numbers, so the same index functions). -/
theorem up3_apply (e : Fin 8) (g : Fin 2048) (f : Fin 5632) :
    val_main_v2 (F := Ideal) X W3 (ix3 e g f) = proj X W3 e g f := by
  rw [val_main_v2_apply]
  unfold proj
  refine Finset.sum_congr rfl fun k _ => ?_
  have el : lidx_main_v2 (ix3 e g f) k = ix3 e g k :=
    funext fun a => Fin.ext (by match a with | ⟨0, _⟩ => rfl | ⟨1, _⟩ => rfl | ⟨2, _⟩ => rfl)
  have er : ridx_main_v2 (ix3 e g f) k = ix3 e k f :=
    funext fun a => Fin.ext (by match a with | ⟨0, _⟩ => rfl | ⟨1, _⟩ => rfl | ⟨2, _⟩ => rfl)
  rw [el, er, tokens_apply]

/-- The gated hidden value at (e, g, f): p1 * (1 / (1 + exp(-p1))) * p3 is p1 * logistic(p1) * p3. -/
theorem hidden_apply (e : Fin 8) (g : Fin 2048) (f : Fin 5632) :
    val_main_v4 (F := Ideal) X W1 W3 (ix3 e g f) = hidden X W1 W3 e g f := by
  rw [val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, up1_apply, up3_apply]
  simp only [Ideal.mulf_def, Ideal.hostDivf_def, Ideal.addf_def, Ideal.hostUnary_exp_def, Ideal.hostNegf_def,
    Ideal.negf_def, Ideal.ofBits_def, ofBits_one]
  rfl

/-- The down-projection at (e, g, d). -/
theorem down_apply (e : Fin 8) (g d : Fin 2048) :
    val_main_v5 (F := Ideal) X W1 W2 W3 (ix3 e g d) = expertOut X W1 W2 W3 e g d := by
  rw [val_main_v5_apply]
  unfold expertOut
  refine Finset.sum_congr rfl fun f _ => ?_
  rw [lidx_down, ridx_down, hidden_apply]

/-- The reference's result is the specification's function of the arguments. -/
theorem result_eq : val_main_v6 (F := Ideal) X W1 W2 W3 = result X W1 W2 W3 := by
  funext (j : SX.Idx)
  have h0 := idx2_lt0 j
  have hr : (j 0).val = ((j 0).val / 2048) * 2048 + (j 0).val % 2048 := by omega
  have e : val_main_v6 (F := Ideal) X W1 W2 W3 j
      = val_main_v5 (F := Ideal) X W1 W2 W3 (ix3 ⟨(j 0).val / 2048, by omega⟩ ⟨(j 0).val % 2048, Nat.mod_lt _ (by norm_num)⟩ (j 1)) := by
    conv_lhs => rw [eq_ix2 j]
    exact Cert.LibFlatten.shapeCast_abc_Rc_apply _ _ ⟨(j 0).val / 2048, by omega⟩ ⟨(j 0).val % 2048, Nat.mod_lt _ (by norm_num)⟩ (j 1) (j 0) hr
  exact e.trans ((down_apply X W1 W2 W3 _ _ _).trans rfl)

end Cert.Ffn.RefSide

end
-- ==== Proof.lean ====
/-
  A per-expert gated feed-forward layer: the blocked kernel against the plain einsum formulation.

  Tokens x are [16384, 2048], 2048 rows for each of 8 experts; w1 and w3 are [8, 2048, 5632], w2 is [8, 5632, 2048].
  For expert e and its row g, with p1 = x_g · w1[e] and p3 = x_g · w3[e] (vectors of 5632 hidden values), the result
  row is  (p1 * logistic(p1) * p3) · w2[e].

  The kernel walks a grid of 8 experts by 4 row blocks of 512 rows by 22 hidden-column blocks of 256 columns. At each
  point it forms the 512 x 256 slice of the gated hidden matrix and multiplies it by the matching 256 x 2048 slice of
  w2, adding the product into an accumulator that is zeroed at the first column block and copied to the output at the
  last. On the extended reals a change of float format is the identity and a matrix product is the exact sum of
  products, so after the last column block the accumulator holds the sum, over the 22 blocks, of each block's 256
  terms: the same 5632 terms the reference's single contraction adds, in another grouping. Regrouping a finite sum
  needs only commutativity and associativity, so the finiteness of the inputs is never used. The reference spells the
  logistic function as 1 / (1 + exp(-p)), which is its definition on the extended reals.

  The modules: Spec (the function, and the 22-by-256 regrouping), Body (one point's arithmetic at an entry), Pieces and
  Cases (what each control case leaves in the accumulator and the output block), Blocks (the point's input blocks as
  entries of the arguments), Accum (the accumulator along the grid, by induction on the point), Final (blocks to the
  result array, the reshape after the region, the run), RefSide (the reference is the same function).
-/
import proofs.«115818_j1889785610412_2_alg».proof.Defs
import proofs.«115818_j1889785610412_2_alg».proof.Proof.Gen.Kernel
import proofs.«115818_j1889785610412_2_alg».proof.Proof.Gen.Kernel.Skeleton
import proofs.«115818_j1889785610412_2_alg».proof.Proof.Gen.Kernel.Launch
import proofs.«115818_j1889785610412_2_alg».proof.Proof.Gen.Kernel.Points
import proofs.«115818_j1889785610412_2_alg».proof.Proof.Gen.Kernel.Frame
import proofs.«115818_j1889785610412_2_alg».proof.Proof.Gen.KernelIdeal
import proofs.«115818_j1889785610412_2_alg».proof.Proof.Gen.KernelIdeal.Skeleton
import proofs.«115818_j1889785610412_2_alg».proof.Proof.Gen.KernelIdeal.Launch
import proofs.«115818_j1889785610412_2_alg».proof.Proof.Gen.KernelIdeal.Points
import proofs.«115818_j1889785610412_2_alg».proof.Proof.Gen.KernelIdeal.Frame
import proofs.«115818_j1889785610412_2_alg».proof.Proof.Gen.ReferenceIdeal
import proofs.«115818_j1889785610412_2_alg».proof.Proof.Gen.Pre_finite_inputs
import proofs.«115818_j1889785610412_2_alg».proof.Proof.Gen.ReferenceIdeal.Run
import proofs.«115818_j1889785610412_2_alg».proof.Proof.Gen.ReferenceIdeal.Read
import proofs.«115818_j1889785610412_2_alg».proof.Proof.Final
import proofs.«115818_j1889785610412_2_alg».proof.Proof.RefSide
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten when it was read on the extended reals. -/
theorem preserves : Cert.preserves_Kernel_KernelIdeal := trivial

/-- Both programs end with the result array at the one function of the argument arrays: the kernel by the accumulation
    along the grid, the reference by its operations read entry by entry. -/
theorem algebraic : Cert.algebraic_KernelIdeal_ReferenceIdeal := by
  intro m ρ m' ρ' _ hagree
  refine ⟨fun c => Cert.Ffn.result (Cert.Ffn.Blocks.argX m c) (Cert.Ffn.Blocks.argW1 m c) (Cert.Ffn.Blocks.argW2 m c)
    (Cert.Ffn.Blocks.argW3 m c), Cert.Ffn.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Ffn.RefSide.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
